-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.SageLayer.lean ====
/-
  One graph-convolution layer, row by row, on the extended reals.

  For node features `h`, the per-node sum `S` of the neighbours' features, and weights `Ws`, `Wn`, bias `b`, node `p`'s
  output channel `q` is written in two arrangements:

  * `layerMul`: the neighbour sum is first SCALED by a per-node factor `inv p`, both products are added, and the bias comes
    last: `(∑ₖ h p k · Ws k q + ∑ₖ (S p k · inv p) · Wn k q) + b q`;
  * `layerDiv`: the neighbour MEAN `A` is given, and the bias is added to the first product before the second:
    `(∑ₖ h p k · Ws k q + b q) + ∑ₖ A p k · Wn k q`.

  With `inv p = 1 / c p` and `A p k = S p k / c p` for a divisor `c p` that is not zero the two agree, for every extended-real
  `h`, `S`, weights and bias: for such a divisor the quotient is the product with the reciprocal computed first, and the rest only
  reorders a sum of three terms — no factor moves across a sum, so nothing need be finite.
-/
import Idealize.ShloMosaic.PureOps.Ideal
import Idealize.ShloMosaic.Lib.IdealHost

noncomputable section

namespace SageLayer

open Idealize.ShloMosaic

variable {n d e : ℕ}

/-- The layer with the neighbour sum scaled by a per-node factor and the bias added last. -/
def layerMul (h S : Fin n → Fin d → EReal) (inv : Fin n → EReal) (Ws Wn : Fin d → Fin e → EReal) (b : Fin e → EReal)
    (p : Fin n) (q : Fin e) : EReal :=
  (∑ k, h p k * Ws k q + ∑ k, (S p k * inv p) * Wn k q) + b q

/-- The layer over the neighbour mean, the bias added to the first product. -/
def layerDiv (h A : Fin n → Fin d → EReal) (Ws Wn : Fin d → Fin e → EReal) (b : Fin e → EReal)
    (p : Fin n) (q : Fin e) : EReal :=
  (∑ k, h p k * Ws k q + b q) + ∑ k, A p k * Wn k q

/-- Scaling by the reciprocal of a divisor that is not zero is dividing by it, and the three summands commute. -/
theorem layerMul_recip_eq_layerDiv (h S : Fin n → Fin d → EReal) (c : Fin n → EReal)
    (hc : ∀ p, c p ≠ 0) (Ws Wn : Fin d → Fin e → EReal) (b : Fin e → EReal)
    (p : Fin n) (q : Fin e) :
    layerMul h S (fun p => Ideal.div 1 (c p)) Ws Wn b p q = layerDiv h (fun p k => Ideal.div (S p k) (c p)) Ws Wn b p q := by
  unfold layerMul layerDiv
  simp only [Ideal.mul_one_div (hc p)]
  exact add_right_comm _ _ _

end SageLayer

end
-- ==== Proof.KernelBody.lean ====
/-
  What the kernel body computes on one block of 5000 nodes, read at node `p` of the block and output channel `q`.

  The body loads the block's features `x0`, neighbour sums `x1`, the column `x2` of per-node factors, the two weight matrices
  `x3`, `x4` and the bias row `x5`. The factor column is broadcast over the 128 lanes and multiplied into the neighbour sums;
  both 5000×128 by 128×128 products go into a zero accumulator, so each is the plain sum over the 128 contracted channels;
  the bias row is broadcast over the rows and added last. The changes of float format are the identity on the extended reals.
  So entry `(p, q)` is `SageLayer.layerMul` of the block at `(p, q)`; the first layer's body then takes the maximum with zero.
-/
import proofs.«152156_j27754078667399_2_alg».proof.Proof.Gen.KernelIdeal.Skeleton
import proofs.«152156_j27754078667399_2_alg».proof.Proof.LibPlainDot
import proofs.«152156_j27754078667399_2_alg».proof.Proof.LibKeepDims
import proofs.«152156_j27754078667399_2_alg».proof.Proof.SageLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen SageLayer

/-- The body's matrix product contracts the left operand's channels against the right operand's rows, with no batch axis. -/
theorem dot_plain : PlainDot.IsPlain (P := 5000) (K := 128) (Q := 128) dot_S5000x128_S128x128_S5000x128_1_0_0_1_n_n :=
  ⟨rfl, rfl, rfl, rfl, rfl, rfl⟩

/-- The neighbour sums scaled by the broadcast factor column, at `(p, k)`. -/
theorem scaled_apply (x1 : FVec Ideal S5000x128 .f32) (x2 : FVec Ideal S5000x1 .f32) (p : Fin 5000) (k : Fin 128) :
    (mulf x1 (broadcastTo S5000x128 x2 broadcasts_S5000x1_S5000x128) : FVec Ideal S5000x128 .f32) (ix2 p k)
      = x1 (ix2 p k) * x2 (ix2 p (0 : Fin 1)) := by
  rw [mulf_apply, KeepDims.broadcastTo_a1_ab_apply]

/-- The bias row broadcast over the rows, at `(p, q)`. -/
theorem bias_apply (x5 : Vec Ideal S1x128 .f32) (p : Fin 5000) (q : Fin 128) :
    broadcastTo S5000x128 (shapeCast S1x128 x5 shapeCasts_S1x128_S1x128) broadcasts_S1x128_S5000x128 (ix2 p q)
      = x5 (ix2 (0 : Fin 1) q) := by
  rw [shapeCast_self, broadcastTo_1b_ab_apply]

/-- The second layer's body at `(p, q)`. -/
theorem pay1_apply (x0 x1 : Vec Ideal S5000x128 .f32) (x2 : Vec Ideal S5000x1 .f32) (x3 x4 : Vec Ideal S128x128 .f32)
    (x5 : Vec Ideal S1x128 .f32) (p : Fin 5000) (q : Fin 128) :
    k1_pay1 (F := Ideal) x0 x2 x1 x3 x4 x5 (ix2 p q)
      = layerMul (fun p k => x0 (ix2 p k)) (fun p k => x1 (ix2 p k)) (fun p => x2 (ix2 p (0 : Fin 1)))
          (fun k q => x3 (ix2 k q)) (fun k q => x4 (ix2 k q)) (fun q => x5 (ix2 (0 : Fin 1) q)) p q := by
  unfold k1_pay1 layerMul
  dsimp only [Idealize.ShloMosaic.matmul]
  rw [addf_apply, addf_apply, PlainDot.matmul_zero_apply dot_plain, PlainDot.matmul_zero_apply dot_plain, bias_apply]
  simp only [truncf_apply, shapeCast_self, scaled_apply]

/-- The first layer's body at `(p, q)`: the same, then the maximum with zero. -/
theorem pay0_apply (x0 x1 : Vec Ideal S5000x128 .f32) (x2 : Vec Ideal S5000x1 .f32) (x3 x4 : Vec Ideal S128x128 .f32)
    (x5 : Vec Ideal S1x128 .f32) (p : Fin 5000) (q : Fin 128) :
    k0_pay1 (F := Ideal) x0 x2 x1 x3 x4 x5 (ix2 p q)
      = max (layerMul (fun p k => x0 (ix2 p k)) (fun p k => x1 (ix2 p k)) (fun p => x2 (ix2 p (0 : Fin 1)))
          (fun k q => x3 (ix2 k q)) (fun k q => x4 (ix2 k q)) (fun q => x5 (ix2 (0 : Fin 1) q)) p q) 0 := by
  unfold k0_pay1 layerMul
  dsimp only [Idealize.ShloMosaic.matmul]
  rw [maximumf_apply, addf_apply, addf_apply, PlainDot.matmul_zero_apply dot_plain, PlainDot.matmul_zero_apply dot_plain,
    bias_apply, broadcast_apply]
  simp only [truncf_apply, shapeCast_self, scaled_apply]
  congr 1
  exact Ideal.ofBits_zero_f32

end Cert.KernelIdeal.Body

end
-- ==== Proof.LayerArray.lean ====
/-
  The layer function on whole arrays: 100000 nodes, 128 channels in and out.

  `layerArr h S inv Ws Wn b` is, at node `p` and channel `q`, `SageLayer.layerMul` of the arrays' entries — the factor
  `inv` a column `[100000, 1]`, the bias `b` a row `[1, 128]` —; `reluArr` takes the maximum with zero entry by entry.
-/
import proofs.«152156_j27754078667399_2_alg».proof.Proof.SageLayer
import Idealize.ShloMosaic.Lib.ValueIdx

noncomputable section

namespace LayerArray

open Idealize.ShloMosaic Idealize.ShloMosaic.ValueIdx SageLayer

abbrev NodesByChannels : Shape := ⟨2, ![100000, 128]⟩
abbrev NodesColumn : Shape := ⟨2, ![100000, 1]⟩
abbrev ChannelsSquare : Shape := ⟨2, ![128, 128]⟩
abbrev ChannelsRow : Shape := ⟨2, ![1, 128]⟩

/-- One layer on whole arrays, the neighbour sums scaled by the factor column and the bias row added last. -/
def layerArr (h S : NodesByChannels.Idx → EReal) (inv : NodesColumn.Idx → EReal) (Ws Wn : ChannelsSquare.Idx → EReal)
    (b : ChannelsRow.Idx → EReal) : NodesByChannels.Idx → EReal := fun i =>
  layerMul (fun p k => h (ix2 p k)) (fun p k => S (ix2 p k)) (fun p => inv (ix2 p (0 : Fin 1)))
    (fun k q => Ws (ix2 k q)) (fun k q => Wn (ix2 k q)) (fun q => b (ix2 (0 : Fin 1) q)) (i 0) (i 1)

theorem layerArr_apply (h S : NodesByChannels.Idx → EReal) (inv : NodesColumn.Idx → EReal) (Ws Wn : ChannelsSquare.Idx → EReal)
    (b : ChannelsRow.Idx → EReal) (p : Fin 100000) (q : Fin 128) :
    layerArr h S inv Ws Wn b (ix2 p q)
      = layerMul (fun p k => h (ix2 p k)) (fun p k => S (ix2 p k)) (fun p => inv (ix2 p (0 : Fin 1)))
          (fun k q => Ws (ix2 k q)) (fun k q => Wn (ix2 k q)) (fun q => b (ix2 (0 : Fin 1) q)) p q := rfl

/-- The maximum with zero, entry by entry. -/
def reluArr (x : NodesByChannels.Idx → EReal) : NodesByChannels.Idx → EReal := fun i => max (x i) 0

theorem reluArr_apply (x : NodesByChannels.Idx → EReal) (i : NodesByChannels.Idx) : reluArr x i = max (x i) 0 := rfl

end LayerArray

end
-- ==== Proof.KernelRegion0.lean ====
/-
  REGION 0, whole: the array the first layer's pipeline leaves, as one function of the arrays it finds.

  The grid has 20 points; point `t` stages rows `5000·t … 5000·t + 4999` of the node features, of the neighbour sums and of the
  factor column, and the two weight matrices and the bias row whole, and writes back the same rows of the output. So the block
  point `t` writes is the layer function of the whole arrays, read through that block, and the 20 blocks tile the 100000 rows.
-/
import proofs.«152156_j27754078667399_2_alg».proof.Proof.Gen.KernelIdeal.Frame
import proofs.«152156_j27754078667399_2_alg».proof.Proof.KernelBody
import proofs.«152156_j27754078667399_2_alg».proof.Proof.LayerArray

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen SageLayer LayerArray
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the three row-blocked inputs move with the output along the rows, every block sits at
    lane-block 0, the weights and the bias stay at block 0, and the output's row-block index is the point's number. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every row-block of the output is some point's. -/
theorem index_onto : ∀ q0 : Fin 20, ∃ t : Fin cfg0.N, win0_6.index t = ![q0.val, 0] :=
  (by decide +kernel : ∀ q0 : Fin 20, ∃ t : Fin grid0.N, win0_6.index t = ![q0.val, 0])

/-- The array row that row `p` of point `t`'s output block is. -/
abbrev outRow (t : Fin cfg0.N) (p : Fin 5000) : Fin 100000 := (((cfg0.win 6).blk t).view.emb (ix2 p (0 : Fin 128))) 0

/-- Entry `(p, q)` of point `t`'s output block is entry `(outRow t p, q)` of the array. -/
theorem out_emb (t : Fin cfg0.N) (p : Fin 5000) (q : Fin 128) :
    ((cfg0.win 6).blk t).view.emb (ix2 p q) = ix2 (outRow t p) q := by
  obtain ⟨-, -, -, -, -, -, -, -, -, -, -, -, e1, -⟩ := index_facts t
  funext a; apply Fin.ext
  match a with
  | ⟨0, _⟩ => rfl
  | ⟨1, _⟩ =>
    show win0_6.index t (1 : Fin 2) * 128 + 1 * q.val = q.val
    omega

/-- The features' block at `(p, k)`. -/
theorem blk_0 (c : Dev nD) (t : Fin cfg0.N) (p : Fin 5000) (k : Fin 128) :
    iblk0 V c 0 t (ix2 p k) = (V c main_arg0 : S100000x128.Idx → EReal) (ix2 (outRow t p) k) := by
  obtain ⟨e0, e1, -⟩ := index_facts t
  show V c main_arg0 (((cfg0.win 0).blk t).view.emb (ix2 p k)) = _
  refine congrArg _ (funext fun a => Fin.ext ?_)
  match a with
  | ⟨0, _⟩ =>
    show win0_0.index t (0 : Fin 2) * 5000 + 1 * p.val = win0_6.index t (0 : Fin 2) * 5000 + 1 * p.val
    omega
  | ⟨1, _⟩ =>
    show win0_0.index t (1 : Fin 2) * 128 + 1 * k.val = k.val
    omega

/-- The neighbour sums' block at `(p, k)`. -/
theorem blk_1 (c : Dev nD) (t : Fin cfg0.N) (p : Fin 5000) (k : Fin 128) :
    iblk0 V c 1 t (ix2 p k) = (V c main_v18 : S100000x128.Idx → EReal) (ix2 (outRow t p) k) := by
  obtain ⟨-, -, e0, e1, -⟩ := index_facts t
  show V c main_v18 (((cfg0.win 1).blk t).view.emb (ix2 p k)) = _
  refine congrArg _ (funext fun a => Fin.ext ?_)
  match a with
  | ⟨0, _⟩ =>
    show win0_1.index t (0 : Fin 2) * 5000 + 1 * p.val = win0_6.index t (0 : Fin 2) * 5000 + 1 * p.val
    omega
  | ⟨1, _⟩ =>
    show win0_1.index t (1 : Fin 2) * 128 + 1 * k.val = k.val
    omega

/-- The factor column's block at `(p, 0)`. -/
theorem blk_2 (c : Dev nD) (t : Fin cfg0.N) (p : Fin 5000) :
    iblk0 V c 2 t (ix2 p (0 : Fin 1)) = (V c main_v8 : S100000x1.Idx → EReal) (ix2 (outRow t p) (0 : Fin 1)) := by
  obtain ⟨-, -, -, -, e0, e1, -⟩ := index_facts t
  show V c main_v8 (((cfg0.win 2).blk t).view.emb (ix2 p (0 : Fin 1))) = _
  refine congrArg _ (funext fun a => Fin.ext ?_)
  match a with
  | ⟨0, _⟩ =>
    show win0_2.index t (0 : Fin 2) * 5000 + 1 * p.val = win0_6.index t (0 : Fin 2) * 5000 + 1 * p.val
    omega
  | ⟨1, _⟩ =>
    show win0_2.index t (1 : Fin 2) * 1 + 1 * 0 = 0
    omega

/-- The first weight matrix is staged whole. -/
theorem blk_3 (c : Dev nD) (t : Fin cfg0.N) (k q : Fin 128) :
    iblk0 V c 3 t (ix2 k q) = (V c main_arg1 : S128x128.Idx → EReal) (ix2 k q) := by
  obtain ⟨-, -, -, -, -, -, e0, e1, -⟩ := index_facts t
  show V c main_arg1 (((cfg0.win 3).blk t).view.emb (ix2 k q)) = _
  refine congrArg _ (funext fun a => Fin.ext ?_)
  match a with
  | ⟨0, _⟩ =>
    show win0_3.index t (0 : Fin 2) * 128 + 1 * k.val = k.val
    omega
  | ⟨1, _⟩ =>
    show win0_3.index t (1 : Fin 2) * 128 + 1 * q.val = q.val
    omega

/-- The second weight matrix is staged whole. -/
theorem blk_4 (c : Dev nD) (t : Fin cfg0.N) (k q : Fin 128) :
    iblk0 V c 4 t (ix2 k q) = (V c main_arg3 : S128x128.Idx → EReal) (ix2 k q) := by
  obtain ⟨-, -, -, -, -, -, -, -, e0, e1, -⟩ := index_facts t
  show V c main_arg3 (((cfg0.win 4).blk t).view.emb (ix2 k q)) = _
  refine congrArg _ (funext fun a => Fin.ext ?_)
  match a with
  | ⟨0, _⟩ =>
    show win0_4.index t (0 : Fin 2) * 128 + 1 * k.val = k.val
    omega
  | ⟨1, _⟩ =>
    show win0_4.index t (1 : Fin 2) * 128 + 1 * q.val = q.val
    omega

/-- The bias row is staged whole. -/
theorem blk_5 (c : Dev nD) (t : Fin cfg0.N) (q : Fin 128) :
    iblk0 V c 5 t (ix2 (0 : Fin 1) q) = (V c main_v19 : S1x128.Idx → EReal) (ix2 (0 : Fin 1) q) := by
  obtain ⟨-, -, -, -, -, -, -, -, -, -, e0, e1, -⟩ := index_facts t
  show V c main_v19 (((cfg0.win 5).blk t).view.emb (ix2 (0 : Fin 1) q)) = _
  refine congrArg _ (funext fun a => Fin.ext ?_)
  match a with
  | ⟨0, _⟩ =>
    show win0_5.index t (0 : Fin 2) * 1 + 1 * 0 = 0
    omega
  | ⟨1, _⟩ =>
    show win0_5.index t (1 : Fin 2) * 128 + 1 * q.val = q.val
    omega

/-- WHAT POINT `t` WRITES BACK is block `t` of the layer function of the arrays the region finds. -/
theorem flushed_eq (c : Dev nD) (t : Fin cfg0.N) :
    (dat0 V c).flushed 6 t = ((cfg0.win 6).blk t).view.read (Elt Ideal)
      (reluArr (layerArr (V c main_arg0) (V c main_v18) (V c main_v8) (V c main_arg1) (V c main_arg3) (V c main_v19))) := by
  show (cfg0.win 6).cut (grid0.coords t) ((dat0 V c).after 6 t) = _
  rw [after0_6]
  unfold out0_6
  rw [View.canon_unit_zero origin2]
  simp only [View.ld_unit_zero (S := S5000x128) origin2, View.ld_unit_zero (S := S5000x1) origin2,
    View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  refine (Body.pay0_apply (iblk0 V c 0 t) (iblk0 V c 1 t) (iblk0 V c 2 t) (iblk0 V c 3 t) (iblk0 V c 4 t) (iblk0 V c 5 t) p q).trans ?_
  show _ = reluArr (layerArr (V c main_arg0) (V c main_v18) (V c main_v8) (V c main_arg1) (V c main_arg3) (V c main_v19))
    (((cfg0.win 6).blk t).view.emb (ix2 p q))
  rw [out_emb t p q, reluArr_apply, layerArr_apply]
  simp only [blk_0 V c t, blk_1 V c t, blk_2 V c t, blk_3 V c t, blk_4 V c t, blk_5 V c t]
  rfl

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- The 20 blocks tile the array: row `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE ARRAY the region leaves: the layer function, then the maximum with zero, of the arrays it finds. -/
theorem final (c : Dev nD) :
    (dat0 V c).arrAt 6 cfg0.N
      = reluArr (layerArr (V c main_arg0) (V c main_v18) (V c main_v8) (V c main_arg1) (V c main_arg3) (V c main_v19)) :=
  (dat0 V c).arrAt_eq_of_cover 6 _ (fun t _ => flushed_eq V c t) cover

end Cert.KernelIdeal.Region0

end
-- ==== Proof.KernelRegion1.lean ====
/-
  REGION 1, whole: the array the second layer's pipeline leaves, as one function of the arrays it finds.

  The same 20-point grid and the same blocks as the first layer's region: point `t` stages rows `5000·t … 5000·t + 4999` of the
  hidden features, of their neighbour sums and of the factor column, the second layer's weights and bias whole, and writes back
  the same rows of the result. This layer's body takes no maximum.
-/
import proofs.«152156_j27754078667399_2_alg».proof.Proof.Gen.KernelIdeal.Frame
import proofs.«152156_j27754078667399_2_alg».proof.Proof.KernelBody
import proofs.«152156_j27754078667399_2_alg».proof.Proof.LayerArray

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen SageLayer LayerArray
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the three row-blocked inputs move with the output along the rows, every block sits at
    lane-block 0, the weights and the bias stay at block 0, and the output's row-block index is the point's number. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every row-block of the output is some point's. -/
theorem index_onto : ∀ q0 : Fin 20, ∃ t : Fin cfg1.N, win1_6.index t = ![q0.val, 0] :=
  (by decide +kernel : ∀ q0 : Fin 20, ∃ t : Fin grid1.N, win1_6.index t = ![q0.val, 0])

/-- The array row that row `p` of point `t`'s output block is. -/
abbrev outRow (t : Fin cfg1.N) (p : Fin 5000) : Fin 100000 := (((cfg1.win 6).blk t).view.emb (ix2 p (0 : Fin 128))) 0

/-- Entry `(p, q)` of point `t`'s output block is entry `(outRow t p, q)` of the array. -/
theorem out_emb (t : Fin cfg1.N) (p : Fin 5000) (q : Fin 128) :
    ((cfg1.win 6).blk t).view.emb (ix2 p q) = ix2 (outRow t p) q := by
  obtain ⟨-, -, -, -, -, -, -, -, -, -, -, -, e1, -⟩ := index_facts t
  funext a; apply Fin.ext
  match a with
  | ⟨0, _⟩ => rfl
  | ⟨1, _⟩ =>
    show win1_6.index t (1 : Fin 2) * 128 + 1 * q.val = q.val
    omega

/-- The features' block at `(p, k)`. -/
theorem blk_0 (c : Dev nD) (t : Fin cfg1.N) (p : Fin 5000) (k : Fin 128) :
    iblk1 V c 0 t (ix2 p k) = (V c main_v20 : S100000x128.Idx → EReal) (ix2 (outRow t p) k) := by
  obtain ⟨e0, e1, -⟩ := index_facts t
  show V c main_v20 (((cfg1.win 0).blk t).view.emb (ix2 p k)) = _
  refine congrArg _ (funext fun a => Fin.ext ?_)
  match a with
  | ⟨0, _⟩ =>
    show win1_0.index t (0 : Fin 2) * 5000 + 1 * p.val = win1_6.index t (0 : Fin 2) * 5000 + 1 * p.val
    omega
  | ⟨1, _⟩ =>
    show win1_0.index t (1 : Fin 2) * 128 + 1 * k.val = k.val
    omega

/-- The neighbour sums' block at `(p, k)`. -/
theorem blk_1 (c : Dev nD) (t : Fin cfg1.N) (p : Fin 5000) (k : Fin 128) :
    iblk1 V c 1 t (ix2 p k) = (V c main_v30 : S100000x128.Idx → EReal) (ix2 (outRow t p) k) := by
  obtain ⟨-, -, e0, e1, -⟩ := index_facts t
  show V c main_v30 (((cfg1.win 1).blk t).view.emb (ix2 p k)) = _
  refine congrArg _ (funext fun a => Fin.ext ?_)
  match a with
  | ⟨0, _⟩ =>
    show win1_1.index t (0 : Fin 2) * 5000 + 1 * p.val = win1_6.index t (0 : Fin 2) * 5000 + 1 * p.val
    omega
  | ⟨1, _⟩ =>
    show win1_1.index t (1 : Fin 2) * 128 + 1 * k.val = k.val
    omega

/-- The factor column's block at `(p, 0)`. -/
theorem blk_2 (c : Dev nD) (t : Fin cfg1.N) (p : Fin 5000) :
    iblk1 V c 2 t (ix2 p (0 : Fin 1)) = (V c main_v8 : S100000x1.Idx → EReal) (ix2 (outRow t p) (0 : Fin 1)) := by
  obtain ⟨-, -, -, -, e0, e1, -⟩ := index_facts t
  show V c main_v8 (((cfg1.win 2).blk t).view.emb (ix2 p (0 : Fin 1))) = _
  refine congrArg _ (funext fun a => Fin.ext ?_)
  match a with
  | ⟨0, _⟩ =>
    show win1_2.index t (0 : Fin 2) * 5000 + 1 * p.val = win1_6.index t (0 : Fin 2) * 5000 + 1 * p.val
    omega
  | ⟨1, _⟩ =>
    show win1_2.index t (1 : Fin 2) * 1 + 1 * 0 = 0
    omega

/-- The first weight matrix is staged whole. -/
theorem blk_3 (c : Dev nD) (t : Fin cfg1.N) (k q : Fin 128) :
    iblk1 V c 3 t (ix2 k q) = (V c main_arg4 : S128x128.Idx → EReal) (ix2 k q) := by
  obtain ⟨-, -, -, -, -, -, e0, e1, -⟩ := index_facts t
  show V c main_arg4 (((cfg1.win 3).blk t).view.emb (ix2 k q)) = _
  refine congrArg _ (funext fun a => Fin.ext ?_)
  match a with
  | ⟨0, _⟩ =>
    show win1_3.index t (0 : Fin 2) * 128 + 1 * k.val = k.val
    omega
  | ⟨1, _⟩ =>
    show win1_3.index t (1 : Fin 2) * 128 + 1 * q.val = q.val
    omega

/-- The second weight matrix is staged whole. -/
theorem blk_4 (c : Dev nD) (t : Fin cfg1.N) (k q : Fin 128) :
    iblk1 V c 4 t (ix2 k q) = (V c main_arg6 : S128x128.Idx → EReal) (ix2 k q) := by
  obtain ⟨-, -, -, -, -, -, -, -, e0, e1, -⟩ := index_facts t
  show V c main_arg6 (((cfg1.win 4).blk t).view.emb (ix2 k q)) = _
  refine congrArg _ (funext fun a => Fin.ext ?_)
  match a with
  | ⟨0, _⟩ =>
    show win1_4.index t (0 : Fin 2) * 128 + 1 * k.val = k.val
    omega
  | ⟨1, _⟩ =>
    show win1_4.index t (1 : Fin 2) * 128 + 1 * q.val = q.val
    omega

/-- The bias row is staged whole. -/
theorem blk_5 (c : Dev nD) (t : Fin cfg1.N) (q : Fin 128) :
    iblk1 V c 5 t (ix2 (0 : Fin 1) q) = (V c main_v31 : S1x128.Idx → EReal) (ix2 (0 : Fin 1) q) := by
  obtain ⟨-, -, -, -, -, -, -, -, -, -, e0, e1, -⟩ := index_facts t
  show V c main_v31 (((cfg1.win 5).blk t).view.emb (ix2 (0 : Fin 1) q)) = _
  refine congrArg _ (funext fun a => Fin.ext ?_)
  match a with
  | ⟨0, _⟩ =>
    show win1_5.index t (0 : Fin 2) * 1 + 1 * 0 = 0
    omega
  | ⟨1, _⟩ =>
    show win1_5.index t (1 : Fin 2) * 128 + 1 * q.val = q.val
    omega

/-- WHAT POINT `t` WRITES BACK is block `t` of the layer function of the arrays the region finds. -/
theorem flushed_eq (c : Dev nD) (t : Fin cfg1.N) :
    (dat1 V c).flushed 6 t = ((cfg1.win 6).blk t).view.read (Elt Ideal)
      (layerArr (V c main_v20) (V c main_v30) (V c main_v8) (V c main_arg4) (V c main_arg6) (V c main_v31)) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S5000x1) origin2,
    View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  refine (Body.pay1_apply (iblk1 V c 0 t) (iblk1 V c 1 t) (iblk1 V c 2 t) (iblk1 V c 3 t) (iblk1 V c 4 t) (iblk1 V c 5 t) p q).trans ?_
  show _ = layerArr (V c main_v20) (V c main_v30) (V c main_v8) (V c main_arg4) (V c main_arg6) (V c main_v31)
    (((cfg1.win 6).blk t).view.emb (ix2 p q))
  rw [out_emb t p q, layerArr_apply]
  simp only [blk_0 V c t, blk_1 V c t, blk_2 V c t, blk_3 V c t, blk_4 V c t, blk_5 V c t]
  rfl

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- The 20 blocks tile the array: row `r` is in the block of point `r / 5000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- THE ARRAY the region leaves: the layer function of the arrays it finds. -/
theorem final (c : Dev nD) :
    (dat1 V c).arrAt 6 cfg1.N
      = layerArr (V c main_v20) (V c main_v30) (V c main_v8) (V c main_arg4) (V c main_arg6) (V c main_v31) :=
  (dat1 V c).arrAt_eq_of_cover 6 _ (fun t _ => flushed_eq V c t) cover

end Cert.KernelIdeal.Region1

end
-- ==== Proof.KernelValue.lean ====
/-
  The kernel's result as one function of the launch arguments.

  The host computes, once, the factor column `1 / max(deg, 1)` from the destination list (`deg` counts, per node, the edges that end
  there), and for each layer the per-node sum of the features gathered along the source list and scattered along the destination list.
  The first region turns the features `x`, their neighbour sums and the factor column into the hidden features (layer function, then
  the maximum with zero); the host aggregates the hidden features the same way; the second region applies the layer function again.

  Reading the run backwards: the result buffer is what the second region leaves; its operands are the first region's output, carried
  unchanged across the second host stretch, that stretch's neighbour sum of it, the factor column and the arguments, carried unchanged
  from the first stretch or the launch.
-/
import proofs.«152156_j27754078667399_2_alg».proof.Proof.KernelRegion0
import proofs.«152156_j27754078667399_2_alg».proof.Proof.KernelRegion1
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open LayerArray

/-! ## The host's functions -/

/-- The source list as gather rows: a negative entry wraps around by the number of nodes. -/
def srcRows (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per node, the sum of the features of its in-neighbours: gather along the sources, scatter-add along the destinations into zeros. -/
def neighSum (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcRows src))

/-- Per node, the larger of its in-degree (a scatter-add of ones into zeros) and one. -/
def degMax (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The factor column: one over `degMax`, as a column. -/
def invCol (dst : IVec S1600000 32) : FVec Ideal S100000x1 .f32 :=
  shapeCast S100000x1
    (Host.divf (broadcastInDim S100000 ![] bcast_S_S100000 (constant (F := Ideal) S_ .f32 0x3F800000#32)) (degMax dst))
    shapeCasts_S100000_S100000x1

/-- A bias vector as a row. -/
def biasRow (b : FVec Ideal S128 .f32) : FVec Ideal S1x128 .f32 := shapeCast S1x128 b shapeCasts_S128_S1x128

/-- The hidden features. -/
def hidden (x : FVec Ideal S100000x128 .f32) (Ws0 : FVec Ideal S128x128 .f32) (b0 : FVec Ideal S128 .f32) (Wn0 : FVec Ideal S128x128 .f32)
    (src dst : IVec S1600000 32) : FVec Ideal S100000x128 .f32 :=
  reluArr (layerArr x (neighSum x src dst) (invCol dst) Ws0 Wn0 (biasRow b0))

/-- The kernel's result. -/
def out (x : FVec Ideal S100000x128 .f32) (Ws0 : FVec Ideal S128x128 .f32) (b0 : FVec Ideal S128 .f32) (Wn0 : FVec Ideal S128x128 .f32)
    (Ws1 : FVec Ideal S128x128 .f32) (b1 : FVec Ideal S128 .f32) (Wn1 : FVec Ideal S128x128 .f32) (src dst : IVec S1600000 32) :
    FVec Ideal S100000x128 .f32 :=
  layerArr (hidden x Ws0 b0 Wn0 src dst) (neighSum (hidden x Ws0 b0 Wn0 src dst) src dst) (invCol dst) Ws1 Wn1 (biasRow b1)

variable (m : (ℓ : Loc nD τ sig) → Buf (Elt Ideal) ℓ) (ρ : Dev nD → PrngReg)

/-! ## Region 0's operands at its entry -/

set_option maxHeartbeats 4000000 in
theorem V1_arg0 (c : Dev nD) : (V1 m ρ c main_arg0 : S100000x128.Idx → EReal) = m ((c : Thread nD τ).loc main_arg0) := by
  show StableHlo.after hostOps0 (W0 m ρ c) (Proc.devRef .tc main_arg0) = _
  after_results
  try rfl

set_option maxHeartbeats 4000000 in
theorem V1_arg1 (c : Dev nD) : (V1 m ρ c main_arg1 : S128x128.Idx → EReal) = m ((c : Thread nD τ).loc main_arg1) := by
  show StableHlo.after hostOps0 (W0 m ρ c) (Proc.devRef .tc main_arg1) = _
  after_results
  try rfl

set_option maxHeartbeats 4000000 in
theorem V1_arg3 (c : Dev nD) : (V1 m ρ c main_arg3 : S128x128.Idx → EReal) = m ((c : Thread nD τ).loc main_arg3) := by
  show StableHlo.after hostOps0 (W0 m ρ c) (Proc.devRef .tc main_arg3) = _
  after_results
  try rfl

set_option maxHeartbeats 4000000 in
theorem V1_v18 (c : Dev nD) : (V1 m ρ c main_v18 : S100000x128.Idx → EReal)
    = neighSum (m ((c : Thread nD τ).loc main_arg0)) (m ((c : Thread nD τ).loc main_arg7)) (m ((c : Thread nD τ).loc main_arg8)) := by
  show StableHlo.after hostOps0 (W0 m ρ c) (Proc.devRef .tc main_v18) = _
  after_results
  try rfl

set_option maxHeartbeats 4000000 in
theorem V1_v8 (c : Dev nD) : (V1 m ρ c main_v8 : S100000x1.Idx → EReal) = invCol (m ((c : Thread nD τ).loc main_arg8)) := by
  show StableHlo.after hostOps0 (W0 m ρ c) (Proc.devRef .tc main_v8) = _
  after_results
  try rfl

set_option maxHeartbeats 4000000 in
theorem V1_v19 (c : Dev nD) : (V1 m ρ c main_v19 : S1x128.Idx → EReal) = biasRow (m ((c : Thread nD τ).loc main_arg2)) := by
  show StableHlo.after hostOps0 (W0 m ρ c) (Proc.devRef .tc main_v19) = _
  after_results
  try rfl

/-- What region 0 leaves in its output array: the hidden features of the launch arguments. -/
theorem region0_out (c : Dev nD) : (dat0 (V1 m ρ) c).arrAt 6 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) := by
  rw [Region0.final (V1 m ρ) c, V1_arg0, V1_arg1, V1_arg3, V1_v18, V1_v8, V1_v19]
  rfl

end Cert.KernelIdeal.Value

end
-- ==== Proof.KernelResult.lean ====
/-
  The second region's operands at its entry, and the kernel's result buffer.

  Across the first region every buffer that is not one of its arrays keeps its contents, its input arrays keep theirs, and its output
  array holds the hidden features. The second host stretch writes only the neighbour sum of the hidden features and the second bias
  row; everything else the second region reads — the hidden features, the factor column, the second layer's weights — passes through
  unchanged. The result buffer is the second region's output array.
-/
import proofs.«152156_j27754078667399_2_alg».proof.Proof.KernelValue

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open LayerArray

variable (m : (ℓ : Loc nD τ sig) → Buf (Elt Ideal) ℓ) (ρ : Dev nD → PrngReg)

/-! ## Buffers the first stretch and the first region leave alone -/

set_option maxHeartbeats 4000000 in
theorem W1_arg4 (c : Dev nD) : W1 m ρ c (Proc.devRef .tc main_arg4) = m ((c : Thread nD τ).loc main_arg4) := by
  show StableHlo.after hostOps0 (W0 m ρ c) (Proc.devRef .tc main_arg4) = _
  after_results
  try rfl

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results
  try rfl

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results
  try rfl

set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  after_results
  try rfl

theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-- The factor column is an input array of the first region: it leaves the region as it entered. -/
theorem W2_v8 (c : Dev nD) : (W2 m ρ c (Proc.devRef .tc main_v8) : S100000x1.Idx → EReal) = invCol (m ((c : Thread nD τ).loc main_arg8)) :=
  ((W2_arr m ρ c 2).trans (((dat0 (V1 m ρ) c).arrAt_in 2 rfl _).trans (A_eq0 (V1 m ρ) c 2))).trans (V1_v8 m ρ c)

/-- The first region's output array holds the hidden features. -/
theorem W2_v20 (c : Dev nD) : (W2 m ρ c (Proc.devRef .tc main_v20) : S100000x128.Idx → EReal)
    = hidden (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) :=
  (W2_arr m ρ c 6).trans (region0_out m ρ c)

/-! ## Region 1's operands at its entry -/

set_option maxHeartbeats 4000000 in
theorem V3_v20 (c : Dev nD) : (V3 m ρ c main_v20 : S100000x128.Idx → EReal)
    = hidden (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) := by
  refine Eq.trans ?_ (W2_v20 m ρ c)
  show StableHlo.after hostOps1 (W2 m ρ c) (Proc.devRef .tc main_v20) = _
  after_results
  try rfl

set_option maxHeartbeats 4000000 in
theorem V3_v30 (c : Dev nD) : (V3 m ρ c main_v30 : S100000x128.Idx → EReal)
    = neighSum (hidden (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)))
        (m ((c : Thread nD τ).loc main_arg7)) (m ((c : Thread nD τ).loc main_arg8)) := by
  have e : (V3 m ρ c main_v30 : S100000x128.Idx → EReal)
      = neighSum (W2 m ρ c (Proc.devRef .tc main_v20)) (W2 m ρ c (Proc.devRef .tc main_arg7)) (W2 m ρ c (Proc.devRef .tc main_arg8)) := by
    show StableHlo.after hostOps1 (W2 m ρ c) (Proc.devRef .tc main_v30) = _
    after_results
    try rfl
  rw [e, W2_v20, W2_arg7, W2_arg8]

set_option maxHeartbeats 4000000 in
theorem V3_v8 (c : Dev nD) : (V3 m ρ c main_v8 : S100000x1.Idx → EReal) = invCol (m ((c : Thread nD τ).loc main_arg8)) := by
  refine Eq.trans ?_ (W2_v8 m ρ c)
  show StableHlo.after hostOps1 (W2 m ρ c) (Proc.devRef .tc main_v8) = _
  after_results
  try rfl

set_option maxHeartbeats 4000000 in
theorem V3_arg4 (c : Dev nD) : (V3 m ρ c main_arg4 : S128x128.Idx → EReal) = m ((c : Thread nD τ).loc main_arg4) := by
  refine Eq.trans ?_ (W2_arg4 m ρ c)
  show StableHlo.after hostOps1 (W2 m ρ c) (Proc.devRef .tc main_arg4) = _
  after_results
  try rfl

set_option maxHeartbeats 4000000 in
theorem V3_arg6 (c : Dev nD) : (V3 m ρ c main_arg6 : S128x128.Idx → EReal) = m ((c : Thread nD τ).loc main_arg6) := by
  refine Eq.trans ?_ (W2_arg6 m ρ c)
  show StableHlo.after hostOps1 (W2 m ρ c) (Proc.devRef .tc main_arg6) = _
  after_results
  try rfl

set_option maxHeartbeats 4000000 in
theorem V3_v31 (c : Dev nD) : (V3 m ρ c main_v31 : S1x128.Idx → EReal) = biasRow (m ((c : Thread nD τ).loc main_arg5)) := by
  have e : (V3 m ρ c main_v31 : S1x128.Idx → EReal) = biasRow (W2 m ρ c (Proc.devRef .tc main_arg5)) := by
    show StableHlo.after hostOps1 (W2 m ρ c) (Proc.devRef .tc main_v31) = _
    after_results
    try rfl
  rw [e, W2_arg5]

/-- THE RESULT BUFFER at the last boundary: `out` of the launch arguments. -/
theorem result (c : Dev nD) : (W4 m ρ c (Proc.devRef .tc main_v32) : S100000x128.Idx → EReal)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 6).trans ?_
  rw [Region1.final (V3 m ρ) c, V3_v20, V3_v30, V3_v8, V3_arg4, V3_arg6, V3_v31]
  rfl

end Cert.KernelIdeal.Value

end
-- ==== Proof.KernelRun.lean ====
/-
  The kernel's run with its result named: every weakly fair execution terminates, nothing faulting, with the result buffer at
  `Value.out` of the launch arguments and the arguments as launched.

  @main is four segments — a host stretch, the first region, a host stretch, the second region — and at the end every buffer the
  TensorCore holds outside the regions' scoped memory has the last boundary's contents; the result buffer is one of them
  (`Value.result`), the arguments nine others.
-/
import proofs.«152156_j27754078667399_2_alg».proof.Proof.KernelResult

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v32)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v32 (by decide))).trans (result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Value

end
-- ==== Proof.RefValue.lean ====
/-
  The reference's result as one function of the launch arguments, and its layer read at an index.

  The reference forms, per layer, the neighbour MEAN — the per-node sum of the gathered features divided by `max(deg, 1)`, the divisor
  broadcast over the channels — and then `h · Ws + b + mean · Wn`, the bias broadcast over the nodes and added to the first product;
  between the layers it takes the maximum with zero. Each matrix product is the plain sum over the 128 contracted channels, so at
  node `p` and channel `q` the layer is `SageLayer.layerDiv` of the arrays' entries.
-/
import proofs.«152156_j27754078667399_2_alg».proof.Proof.Gen.ReferenceIdeal.Run
import proofs.«152156_j27754078667399_2_alg».proof.Proof.LibPlainDot
import proofs.«152156_j27754078667399_2_alg».proof.Proof.SageLayer
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Gen Idealize.ShloMosaic Idealize.ShloMosaic.ValueIdx Idealize.ShloMosaic.TcCoe Idealize.SL.Sem
open SageLayer

/-! ## The host's functions -/

/-- The source list as gather rows: a negative entry wraps around by the number of nodes. -/
def srcRows (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per node, the sum of the features of its in-neighbours. -/
def neighSum (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcRows src))

/-- Per node, the larger of its in-degree and one. -/
def degMax (dst : IVec S1600000 32) : FVec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- One layer: `h · Ws + b + (S / c) · Wn`, the divisor `c` per node and the bias `b` per channel broadcast. -/
def layer (h S : FVec Ideal S100000x128 .f32) (c : FVec Ideal S100000 .f32) (Ws : FVec Ideal S128x128 .f32) (b : FVec Ideal S128 .f32)
    (Wn : FVec Ideal S128x128 .f32) : FVec Ideal S100000x128 .f32 :=
  addf
    (addf (Host.dotGeneral dot_S100000x128_S128x128_S100000x128_1_0_0_1_n_n none h Ws)
      (broadcastInDim S100000x128 ![0, 1] bcast_S1x128_S100000x128_0_1 (broadcastInDim S1x128 ![1] bcast_S128_S1x128_1 b)))
    (Host.dotGeneral dot_S100000x128_S128x128_S100000x128_1_0_0_1_n_n none
      (Host.divf S (broadcastInDim S100000x128 ![0, 1] bcast_S100000x1_S100000x128_0_1 (broadcastInDim S100000x1 ![0] bcast_S100000_S100000x1_0 c)))
      Wn)

/-- The maximum with zero. -/
def relu (x : FVec Ideal S100000x128 .f32) : FVec Ideal S100000x128 .f32 :=
  maximumf x (broadcastInDim S100000x128 ![] bcast_S_S100000x128 (constant (F := Ideal) S_ .f32 0x00000000#32))

/-- The hidden features. -/
def hidden (x : FVec Ideal S100000x128 .f32) (Ws0 : FVec Ideal S128x128 .f32) (b0 : FVec Ideal S128 .f32) (Wn0 : FVec Ideal S128x128 .f32)
    (src dst : IVec S1600000 32) : FVec Ideal S100000x128 .f32 :=
  relu (layer x (neighSum x src dst) (degMax dst) Ws0 b0 Wn0)

/-- The reference's result. -/
def out (x : FVec Ideal S100000x128 .f32) (Ws0 : FVec Ideal S128x128 .f32) (b0 : FVec Ideal S128 .f32) (Wn0 : FVec Ideal S128x128 .f32)
    (Ws1 : FVec Ideal S128x128 .f32) (b1 : FVec Ideal S128 .f32) (Wn1 : FVec Ideal S128x128 .f32) (src dst : IVec S1600000 32) :
    FVec Ideal S100000x128 .f32 :=
  layer (hidden x Ws0 b0 Wn0 src dst) (neighSum (hidden x Ws0 b0 Wn0 src dst) src dst) (degMax dst) Ws1 b1 Wn1

set_option maxHeartbeats 4000000 in
/-- The run's composed term is `out` of the launch arguments. -/
theorem res_eq (m : (ℓ : Loc nD τ sig) → Buf (Elt Ideal) ℓ) (c : Dev nD) :
    Value.res_main_v50 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Value.res_main_v50 out hidden relu layer neighSum degMax srcRows
  rfl

/-! ## The layer at an index -/

theorem dot_plain : PlainDot.IsPlain (P := 100000) (K := 128) (Q := 128) dot_S100000x128_S128x128_S100000x128_1_0_0_1_n_n :=
  ⟨rfl, rfl, rfl, rfl, rfl, rfl⟩

/-- The bias vector broadcast to a row and then over the nodes, at `(p, q)`. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  rw [broadcastInDim_apply _ _ _ (ix2 p q) (ix2 (0 : Fin 1) q) (fun a => by
        match a with
        | ⟨0, _⟩ => rfl
        | ⟨1, _⟩ => rfl),
    broadcastInDim_apply _ _ _ (ix2 (0 : Fin 1) q) (ix1 q) (fun a => by
        match a with
        | ⟨0, _⟩ => rfl)]

/-- The per-node divisor broadcast to a column and then over the channels, at `(p, k)`. -/
theorem divisor_apply (c : FVec Ideal S100000 .f32) (p : Fin 100000) (k : Fin 128) :
    broadcastInDim S100000x128 ![0, 1] bcast_S100000x1_S100000x128_0_1 (broadcastInDim S100000x1 ![0] bcast_S100000_S100000x1_0 c) (ix2 p k) = c (ix1 p) := by
  rw [broadcastInDim_apply _ _ _ (ix2 p k) (ix2 p (0 : Fin 1)) (fun a => by
        match a with
        | ⟨0, _⟩ => rfl
        | ⟨1, _⟩ => rfl),
    broadcastInDim_apply _ _ _ (ix2 p (0 : Fin 1)) (ix1 p) (fun a => by
        match a with
        | ⟨0, _⟩ => rfl)]

/-- The layer at node `p` and channel `q`. -/
theorem layer_apply (h S : FVec Ideal S100000x128 .f32) (c : FVec Ideal S100000 .f32) (Ws : FVec Ideal S128x128 .f32) (b : FVec Ideal S128 .f32)
    (Wn : FVec Ideal S128x128 .f32) (p : Fin 100000) (q : Fin 128) :
    layer h S c Ws b Wn (ix2 p q)
      = layerDiv (fun p k => h (ix2 p k)) (fun p k => Ideal.div (S (ix2 p k)) (c (ix1 p))) (fun k q => Ws (ix2 k q)) (fun k q => Wn (ix2 k q))
          (fun q => b (ix1 q)) p q := by
  unfold layer layerDiv
  dsimp only [Host.dotGeneral]
  rw [addf_apply, addf_apply, PlainDot.dotGeneral_apply dot_plain, PlainDot.dotGeneral_apply dot_plain, bias_apply]
  refine congrArg _ (Finset.sum_congr rfl fun k _ => ?_)
  rw [hostDivf_apply, divisor_apply]

/-- The maximum with zero at an index. -/
theorem relu_apply (x : FVec Ideal S100000x128 .f32) (i : S100000x128.Idx) : relu x i = max (x i) 0 := by
  unfold relu
  rw [maximumf_apply]
  congr 1
  exact Ideal.ofBits_zero_f32

end Cert.ReferenceIdeal.RefValue

end
-- ==== Proof.Bridge.lean ====
/-
  The kernel's result and the reference's are one function of the arguments.

  Both programs gather, scatter-add and count degrees with the same host operations, so the neighbour sums and the divisor
  `c = max(deg, 1)` are the same arrays. The divisor is at least one, hence not zero, and for a divisor that is not zero scaling by
  `1 / c` is dividing by `c`; with that, one layer of the kernel (sums scaled by the factor column, bias last) is one layer of the
  reference (mean, bias in the middle) on every extended-real input. The maximum with zero is the same on both sides, and the second
  layer is applied to equal hidden features.
-/
import proofs.«152156_j27754078667399_2_alg».proof.Proof.KernelValue
import proofs.«152156_j27754078667399_2_alg».proof.Proof.RefValue
import Idealize.ShloMosaic.Lib.IdealHost
import Idealize.ShloMosaic.Lib.ValueLayout

set_option maxRecDepth 16384

noncomputable section

namespace Cert.Bridge

open Idealize.ShloMosaic Idealize.ShloMosaic.ValueIdx SageLayer LayerArray

/-- The two programs print the same gather and scatter-add. -/
theorem neighSum_eq : Cert.KernelIdeal.Value.neighSum = Cert.ReferenceIdeal.RefValue.neighSum := rfl

/-- The two programs print the same degree count and the same maximum with one. -/
theorem degMax_eq : Cert.KernelIdeal.Value.degMax = Cert.ReferenceIdeal.RefValue.degMax := rfl

/-- The divisor is at least one, so it is not zero. -/
theorem degMax_ne_zero (dst : IVec ⟨1, ![1600000]⟩ 32) (p : Fin 100000) :
    Cert.ReferenceIdeal.RefValue.degMax dst (ix1 p) ≠ 0 := by
  unfold Cert.ReferenceIdeal.RefValue.degMax
  rw [maximumf_apply, broadcastInDim_scalar_apply, constant_apply, Ideal.ofBits_one_f32]
  intro e
  have h1 : (1 : EReal) ≤ 0 := by
    rw [← e]
    exact le_max_right _ _
  exact absurd h1 (by simp)

/-- The factor column at node `p`: one over the divisor. -/
theorem invCol_apply (dst : IVec ⟨1, ![1600000]⟩ 32) (p : Fin 100000) :
    Cert.KernelIdeal.Value.invCol dst (ix2 p (0 : Fin 1)) = Ideal.div 1 (Cert.ReferenceIdeal.RefValue.degMax dst (ix1 p)) := by
  unfold Cert.KernelIdeal.Value.invCol
  rw [KeepDims.shapeCast_a_a1_apply, hostDivf_apply, broadcastInDim_scalar_apply, constant_apply, Ideal.ofBits_one_f32, degMax_eq]

/-- The bias row at channel `q`. -/
theorem biasRow_apply (b : FVec Ideal ⟨1, ![128]⟩ .f32) (q : Fin 128) :
    Cert.KernelIdeal.Value.biasRow b (ix2 (0 : Fin 1) q) = b (ix1 q) := by
  unfold Cert.KernelIdeal.Value.biasRow
  rw [shapeCast_a_1a_apply]

/-- One layer of the kernel is one layer of the reference. -/
theorem layer_eq (h S : FVec Ideal ⟨2, ![100000, 128]⟩ .f32) (dst : IVec ⟨1, ![1600000]⟩ 32) (Ws : FVec Ideal ⟨2, ![128, 128]⟩ .f32)
    (b : FVec Ideal ⟨1, ![128]⟩ .f32) (Wn : FVec Ideal ⟨2, ![128, 128]⟩ .f32) :
    layerArr h S (Cert.KernelIdeal.Value.invCol dst) Ws Wn (Cert.KernelIdeal.Value.biasRow b)
      = Cert.ReferenceIdeal.RefValue.layer h S (Cert.ReferenceIdeal.RefValue.degMax dst) Ws b Wn := by
  funext i
  obtain ⟨p, q, rfl⟩ : ∃ (p : Fin 100000) (q : Fin 128), i = ix2 p q := ⟨i 0, i 1, eq_ix2 i⟩
  rw [layerArr_apply, Cert.ReferenceIdeal.RefValue.layer_apply]
  simp only [invCol_apply, biasRow_apply]
  exact layerMul_recip_eq_layerDiv (fun p k => h (ix2 p k)) (fun p k => S (ix2 p k))
    (fun p => Cert.ReferenceIdeal.RefValue.degMax dst (ix1 p)) (fun p => degMax_ne_zero dst p)
    (fun k q => Ws (ix2 k q)) (fun k q => Wn (ix2 k q)) (fun q => b (ix1 q)) p q

/-- The hidden features agree. -/
theorem hidden_eq (x : FVec Ideal ⟨2, ![100000, 128]⟩ .f32) (Ws0 : FVec Ideal ⟨2, ![128, 128]⟩ .f32) (b0 : FVec Ideal ⟨1, ![128]⟩ .f32)
    (Wn0 : FVec Ideal ⟨2, ![128, 128]⟩ .f32) (src dst : IVec ⟨1, ![1600000]⟩ 32) :
    Cert.KernelIdeal.Value.hidden x Ws0 b0 Wn0 src dst = Cert.ReferenceIdeal.RefValue.hidden x Ws0 b0 Wn0 src dst := by
  unfold Cert.KernelIdeal.Value.hidden Cert.ReferenceIdeal.RefValue.hidden
  rw [neighSum_eq, layer_eq]
  funext i
  rw [reluArr_apply, Cert.ReferenceIdeal.RefValue.relu_apply]

/-- THE RESULTS AGREE. -/
theorem out_eq (x : FVec Ideal ⟨2, ![100000, 128]⟩ .f32) (Ws0 : FVec Ideal ⟨2, ![128, 128]⟩ .f32) (b0 : FVec Ideal ⟨1, ![128]⟩ .f32)
    (Wn0 : FVec Ideal ⟨2, ![128, 128]⟩ .f32) (Ws1 : FVec Ideal ⟨2, ![128, 128]⟩ .f32) (b1 : FVec Ideal ⟨1, ![128]⟩ .f32)
    (Wn1 : FVec Ideal ⟨2, ![128, 128]⟩ .f32) (src dst : IVec ⟨1, ![1600000]⟩ 32) :
    Cert.KernelIdeal.Value.out x Ws0 b0 Wn0 Ws1 b1 Wn1 src dst = Cert.ReferenceIdeal.RefValue.out x Ws0 b0 Wn0 Ws1 b1 Wn1 src dst := by
  unfold Cert.KernelIdeal.Value.out Cert.ReferenceIdeal.RefValue.out
  rw [hidden_eq, neighSum_eq, layer_eq]

end Cert.Bridge

end
-- ==== Proof.lean ====
/-
  A two-layer graph convolution with mean aggregation over 100000 nodes and 1.6 million edges, 128 channels throughout: the kernel
  against its jnp reference, on the extended reals.

  Per layer, node `p` receives `h p · Ws + b + mean p · Wn`, where `mean p` is the sum of the features of the nodes with an edge into
  `p` divided by `max(deg p, 1)`; between the layers the maximum with zero is taken. The kernel keeps the gather and the scatter-add on
  the host, computes the factor `1 / max(deg, 1)` once, and runs each layer's dense part as a pipeline over 20 blocks of 5000 nodes:
  the neighbour sums are scaled by the factor, both products are accumulated, and the bias is added last. The reference divides the
  neighbour sums by `max(deg, 1)` and adds the bias to the first product.

  The two agree for every extended-real input: the divisor is at least one, so scaling by its reciprocal is dividing by it, and the
  three summands of a layer only change places. No factor is moved across a sum, so the finiteness of the inputs is never used; nor is
  anything assumed of the edge lists, which both programs read through the same gather and scatter-add.

  * the word-level kernel's and the idealized kernel's frames are the generated ones; the reference's frame is its generated run with
    the result dropped;
  * the idealization rewrote nothing, so the kernel is its own idealization;
  * the idealized kernel ends with its result at `Value.out` of the arguments (`Value.run`), the reference with its result at
    `RefValue.out` (`RefValue.res_eq` over the generated run), and the two are one function (`Bridge.out_eq`).
-/
import proofs.«152156_j27754078667399_2_alg».proof.Defs
import proofs.«152156_j27754078667399_2_alg».proof.Proof.Gen.Kernel
import proofs.«152156_j27754078667399_2_alg».proof.Proof.Gen.Kernel.Skeleton
import proofs.«152156_j27754078667399_2_alg».proof.Proof.Gen.Kernel.Launch
import proofs.«152156_j27754078667399_2_alg».proof.Proof.Gen.Kernel.Points
import proofs.«152156_j27754078667399_2_alg».proof.Proof.Gen.Kernel.Frame
import proofs.«152156_j27754078667399_2_alg».proof.Proof.Gen.KernelIdeal
import proofs.«152156_j27754078667399_2_alg».proof.Proof.Gen.KernelIdeal.Skeleton
import proofs.«152156_j27754078667399_2_alg».proof.Proof.Gen.KernelIdeal.Launch
import proofs.«152156_j27754078667399_2_alg».proof.Proof.Gen.KernelIdeal.Points
import proofs.«152156_j27754078667399_2_alg».proof.Proof.Gen.KernelIdeal.Frame
import proofs.«152156_j27754078667399_2_alg».proof.Proof.Gen.ReferenceIdeal
import proofs.«152156_j27754078667399_2_alg».proof.Proof.Gen.ReferenceIdeal.Run
import proofs.«152156_j27754078667399_2_alg».proof.Proof.Gen.Pre_finite_inputs
import proofs.«152156_j27754078667399_2_alg».proof.Proof.KernelRun
import proofs.«152156_j27754078667399_2_alg».proof.Proof.RefValue
import proofs.«152156_j27754078667399_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's `Value.out` of the arguments. -/
theorem algebraic : Cert.algebraic_KernelIdeal_ReferenceIdeal := by
  intro m ρ m' ρ' _ hagree
  refine ⟨fun c => Cert.KernelIdeal.Value.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.RefValue.res_eq, e0, e1, e2, e3, e4, e5, e6, e7, e8]
  exact (Cert.Bridge.out_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
